-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S10x2x128 : Shape := ⟨3, ![10, 2, 128]⟩
abbrev S5000x128 : Shape := ⟨2, ![5000, 128]⟩
abbrev S5000x1 : Shape := ⟨2, ![5000, 1]⟩
abbrev S1x2x128 : Shape := ⟨3, ![1, 2, 128]⟩
abbrev S1x128 : Shape := ⟨2, ![1, 128]⟩
abbrev S1x1x128 : Shape := ⟨3, ![1, 1, 128]⟩
abbrev S2x128 : Shape := ⟨2, ![2, 128]⟩

abbrev nBuf : Space → Nat
  | .hbm => 75
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S50000, .i32⟩
  | .hbm, ⟨12, _⟩ => ⟨S_, .i32⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S_, .i32⟩
  | .hbm, ⟨25, _⟩ => ⟨S600000, .i32⟩
  | .hbm, ⟨26, _⟩ => ⟨S50000, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S128x128, .f32⟩
  | .hbm, ⟨50, _⟩ => ⟨S128x128, .bf16⟩
  | .hbm, ⟨51, _⟩ => ⟨S50000x128, .f32⟩
  | .hbm, ⟨52, _⟩ => ⟨S10x2x128, .f32⟩
  | .hbm, ⟨53, _⟩ => ⟨S_, .f32⟩
  | .hbm, ⟨54, _⟩ => ⟨S2x128, .f32⟩
  | .hbm, ⟨55, _⟩ => ⟨S1x128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S1x2x128, .f32⟩
  | .local _ .vmem, ⟨11, _⟩ => ⟨S1x2x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  shapeCasts_S128_S1x1x128 : S128.ShapeCasts S1x1x128
  inb_S1x2x128_S1x1x128_0_1_0 : ∀ a, (![0, 1, 0] : Fin 3 → Nat) a + S1x1x128.size a ≤ S1x2x128.size a
  reducesTo_S10x2x128_S2x128_d0 : S10x2x128.ReducesTo [0] S2x128
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  shapeCasts_S128_S128 : S128.ShapeCasts S128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x128.size a ≤ S10x2x128.size a
  hwx0_6 : ∀ i : grid0.Coords, EltTy.bits .f32 = 32 ∨ (Rect.block (s := S10x2x128) S1x2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_1) S1x2x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S50000, .i32⟩
  | .hbm, ⟨12, _⟩ => ⟨S_, .i32⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S_, .i32⟩
  | .hbm, ⟨25, _⟩ => ⟨S600000, .i32⟩
  | .hbm, ⟨26, _⟩ => ⟨S50000, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_cst : Ref sig .tc := ⟨.hbm, 83, rfl⟩
abbrev main_call2_v0 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_1_0_0_n_n_wf : DotDims.WF S50000x128 S128x128 S50000x128 [1] [1] [0] [0] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.RunResult.lean ====
/-
  The idealized kernel's whole run, keeping its result.  @main is eight segments: five stretches of host
  operations, the first pallas_call (linear layer and per-block statistics), one more stretch (the batch
  statistics), the second pallas_call (normalisation and ReLU).  The generated frame certificate names the
  buffer contents at every segment boundary (W0 … W8, a fold from the launch memory) and runs the
  segments with the final contents W8 read back at the argument arrays only.  Here the same run is read
  back at the result buffer too: after every weakly fair execution the result array is W8's, the value
  the second pallas_call's write-backs leave.
-/
import proofs.«171058_j78005196030507_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibKeepdimsCol.lean ====
/-
  Two layout operations read at an index, for a column kept by a row reduction: a vector of length a cast to an
  [a, 1] column reads the vector's entry, and an [a, 1] column broadcast to [a, b] reads the row's one entry.
-/
import Idealize.ShloMosaic.Lib.Pipeline.Value
import Idealize.ShloMosaic.Lib.ValueIdx

noncomputable section

namespace Cert.LibKeepdimsCol

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdimsCol

end
-- ==== Proof.Body0.lean ====
/-
  The first kernel's body at one grid point, read at an index at the exact (extended-real) instance.

  A grid point loads a block of 5000 rows of the features x and of the neighbour sums agg, the matching 5000
  entries of the reciprocal degrees (a column), the whole transposed weight matrix wt and the bias b.  It stores

    y(p, q)  = Σ_k (x(p, k) + agg(p, k) · invdeg(p)) · wt(k, q)  +  b(q)          (the block of the linear layer)
    s₀(q)    = Σ_p y(p, q),        s₁(q) = Σ_p y(p, q)²                         (the block's two partial statistics)

  The changes of float format are the identity here, the matrix product into a zero accumulator is the plain sum over
  the contracted axis, and a reduction over the rows is the sum over the rows.
-/
import proofs.«171058_j78005196030507_2_alg».proof.Proof.Gen.KernelIdeal.Skeleton
import proofs.«171058_j78005196030507_2_alg».proof.Proof.LibKeepdimsCol
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body0

open Cert.KernelIdeal Cert.KernelIdeal.Gen Idealize.ShloMosaic Idealize.ShloMosaic.ValueIdx
open scoped BigOperators

/-- The matrix product of a [5000, 128] block with a [128, 128] matrix into a zero accumulator, at (p, q): the sum over
    the contracted axis of the products. -/
theorem matmul_pq (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The linear layer's value at row p, column q of a block, from the block's loads. -/
def lin (v0 v1 : FVec Ideal S5000x128 .f32) (v3 : FVec Ideal S5000x1 .f32) (v9 : FVec Ideal S128x128 .bf16) (v12 : FVec Ideal S128 .f32)
    (p : Fin 5000) (q : Fin 128) : EReal :=
  (∑ k : Fin 128, (v0 (ix2 p k) + v1 (ix2 p k) * v3 (ix2 p (0 : Fin 1))) * v9 (ix2 k q)) + v12 (ix1 q)

/-- The stored block of the linear layer, at (p, q). -/
theorem pay1_apply (v0 v1 : FVec Ideal S5000x128 .f32) (v3 : FVec Ideal S5000x1 .f32) (v9 : FVec Ideal S128x128 .bf16) (v12 : FVec Ideal S128 .f32)
    (p : Fin 5000) (q : Fin 128) : k0_pay1 (F := Ideal) v0 v1 v3 v9 v12 (ix2 p q) = lin v0 v1 v3 v9 v12 p q := by
  unfold k0_pay1 lin
  rw [addf_apply, matmul_pq]
  refine congrArg₂ (· + ·) (Finset.sum_congr rfl fun k _ => ?_) ?_
  · rw [truncf_apply, addf_apply, mulf_apply, shapeCast_self, shapeCast_self, shapeCast_self,
      Cert.LibKeepdimsCol.broadcastTo_a1_ab_apply]
  · rw [broadcastTo_1b_ab_apply, shapeCast_a_1a_apply]

/-- A vector of 128 entries cast to [1, 1, 128] reads the vector's entry. -/
theorem cast_128_1x1x128 {α : Type} (x : S128.Idx → α) (h : S128.ShapeCasts S1x1x128) (u v : Fin 1) (q : Fin 128) :
    shapeCast S1x1x128 x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * 128 + q.val
    omega)

/-- The sum over the rows of a [5000, 128] block, at column q. -/
theorem rowsum_q (src : FVec Ideal S5000x128 .f32) (h : S5000x128.Reduces [0] S128) (hφ : FKind.Formats .f32)
    (hacc : (0x00000000#32 : BitVec 32) = 0x00000000#32) (q : Fin 128) :
    multiReduction .add [0] S128 src 0x00000000#32 h hφ hacc (ix1 q) = ∑ r : Fin 5000, src (ix2 r q) := by
  refine (Ideal.multiReduction_add_single src 0x00000000#32 h hφ hacc (ix1 q)).trans ?_
  refine Finset.sum_congr rfl fun r _ => congrArg src (funext fun a => Fin.ext ?_)
  match a with
  | ⟨0, _⟩ => rfl
  | ⟨1, _⟩ => rfl

/-- The block's first partial statistic: the column sums of the linear layer's block. -/
theorem pay2_apply (v0 v1 : FVec Ideal S5000x128 .f32) (v3 : FVec Ideal S5000x1 .f32) (v9 : FVec Ideal S128x128 .bf16) (v12 : FVec Ideal S128 .f32)
    (u v : Fin 1) (q : Fin 128) : k0_pay2 (F := Ideal) v0 v1 v3 v9 v12 (ix3 u v q) = ∑ r : Fin 5000, lin v0 v1 v3 v9 v12 r q := by
  unfold k0_pay2
  rw [cast_128_1x1x128, rowsum_q]
  exact Finset.sum_congr rfl fun r _ => pay1_apply v0 v1 v3 v9 v12 r q

/-- The block's second partial statistic: the column sums of the squares. -/
theorem pay3_apply (v0 v1 : FVec Ideal S5000x128 .f32) (v3 : FVec Ideal S5000x1 .f32) (v9 : FVec Ideal S128x128 .bf16) (v12 : FVec Ideal S128 .f32)
    (u v : Fin 1) (q : Fin 128) :
    k0_pay3 (F := Ideal) v0 v1 v3 v9 v12 (ix3 u v q) = ∑ r : Fin 5000, lin v0 v1 v3 v9 v12 r q * lin v0 v1 v3 v9 v12 r q := by
  unfold k0_pay3
  rw [cast_128_1x1x128, rowsum_q]
  refine Finset.sum_congr rfl fun r _ => ?_
  rw [mulf_apply, pay1_apply]

end Cert.KernelIdeal.Body0

end
-- ==== Proof.Region0.lean ====
/-
  The first pallas_call as whole-array functions.

  Its grid has ten points; point t stages rows 5000·t … 5000·t + 4999 of the features x, of the neighbour sums agg
  and of the column of reciprocal degrees, with the transposed weights wt and the bias b whole.  It writes back the
  same rows of the linear layer's output,

    y(n, q) = Σ_k (x(n, k) + agg(n, k) · invdeg(n)) · wt(k, q) + b(q),

  and row t of the statistics array [10, 2, 128]: entry (t, 0, q) the sum of y(n, q) over the block's rows, entry
  (t, 1, q) the sum of y(n, q)².  The blocks of each output tile its array, so after the last point the two arrays
  are those functions of the arrays the call was entered with.
-/
import proofs.«171058_j78005196030507_2_alg».proof.Proof.Gen.KernelIdeal.Frame
import proofs.«171058_j78005196030507_2_alg».proof.Proof.Body0
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The linear layer at row n, column q, from the whole arrays. -/
def lin (X A : S50000x128.Idx → EReal) (D : S50000x1.Idx → EReal) (Wt : S128x128.Idx → EReal) (B : S128.Idx → EReal)
    (n : Fin 50000) (q : Fin 128) : EReal :=
  (∑ k : Fin 128, (X (ix2 n k) + A (ix2 n k) * D (ix2 n (0 : Fin 1))) * Wt (ix2 k q)) + B (ix1 q)

/-- The linear layer's output array. -/
def Y (X A : S50000x128.Idx → EReal) (D : S50000x1.Idx → EReal) (Wt : S128x128.Idx → EReal) (B : S128.Idx → EReal) :
    S50000x128.Idx → EReal :=
  fun i => lin X A D Wt B ⟨(i 0).val, (i 0).isLt⟩ ⟨(i 1).val, (i 1).isLt⟩

/-- Row r of block t. -/
abbrev blockRow (t : Fin 10) (r : Fin 5000) : Fin 50000 := ⟨t.val * 5000 + r.val, by omega⟩

/-- The statistics array: per block and column, the sum of the block's entries of y and the sum of their squares. -/
def Stats (X A : S50000x128.Idx → EReal) (D : S50000x1.Idx → EReal) (Wt : S128x128.Idx → EReal) (B : S128.Idx → EReal) :
    S10x2x128.Idx → EReal :=
  fun i => if (i 1).val = 0
    then ∑ r : Fin 5000, lin X A D Wt B (blockRow ⟨(i 0).val, (i 0).isLt⟩ r) ⟨(i 2).val, (i 2).isLt⟩
    else ∑ r : Fin 5000, lin X A D Wt B (blockRow ⟨(i 0).val, (i 0).isLt⟩ r) ⟨(i 2).val, (i 2).isLt⟩
          * lin X A D Wt B (blockRow ⟨(i 0).val, (i 0).isLt⟩ r) ⟨(i 2).val, (i 2).isLt⟩

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked inputs and both outputs sit at row block t, column block 0;
    the weights and the bias are staged whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Every row block is some point's. -/
theorem idx_onto : ∀ q0 : Fin 10, ∃ t : Fin cfg0.N, t.val = q0.val :=
  (by decide +kernel : ∀ q0 : Fin 10, ∃ t : Fin grid0.N, t.val = q0.val)

theorem t_lt (t : Fin cfg0.N) : t.val < 10 := lt_of_lt_of_eq t.isLt N_0

/-- A block's linear layer, from the block's loads, is the whole arrays' at the block's rows. -/
theorem lin_block (c : Dev nD) (t : Fin cfg0.N) (p : Fin 5000) (q : Fin 128) :
    Body0.lin (iblk0 V c 0 t) (iblk0 V c 1 t) (iblk0 V c 2 t) (iblk0 V c 3 t) (iblk0 V c 4 t) p q
      = lin (V c main_arg0) (V c main_v28) (V c main_v18) (V c main_v30) (V c main_arg3) (blockRow ⟨t.val, t_lt t⟩ p) q := by
  obtain ⟨e00, e01, e10, e11, e20, e21, e30, e31, e40, e50, e51, e60, e61, e62⟩ := idx_facts t
  unfold Body0.lin lin
  refine congrArg₂ (· + ·) (Finset.sum_congr rfl fun k _ => ?_) ?_
  · refine congrArg₂ (· * ·) (congrArg₂ (· + ·) ?_ (congrArg₂ (· * ·) ?_ ?_)) ?_
    · show V c main_arg0 (((cfg0.win 0).blk t).view.emb (ix2 p k)) = V c main_arg0 (ix2 (blockRow ⟨t.val, t_lt t⟩ p) k)
      refine congrArg _ (funext fun a => Fin.ext ?_)
      match a with
      | ⟨0, _⟩ => show win0_0.index t (0 : Fin 2) * 5000 + 1 * p.val = t.val * 5000 + p.val; omega
      | ⟨1, _⟩ => show win0_0.index t (1 : Fin 2) * 128 + 1 * k.val = k.val; omega
    · show V c main_v28 (((cfg0.win 1).blk t).view.emb (ix2 p k)) = V c main_v28 (ix2 (blockRow ⟨t.val, t_lt t⟩ p) k)
      refine congrArg _ (funext fun a => Fin.ext ?_)
      match a with
      | ⟨0, _⟩ => show win0_1.index t (0 : Fin 2) * 5000 + 1 * p.val = t.val * 5000 + p.val; omega
      | ⟨1, _⟩ => show win0_1.index t (1 : Fin 2) * 128 + 1 * k.val = k.val; omega
    · show V c main_v18 (((cfg0.win 2).blk t).view.emb (ix2 p (0 : Fin 1))) = V c main_v18 (ix2 (blockRow ⟨t.val, t_lt t⟩ p) (0 : Fin 1))
      refine congrArg _ (funext fun a => Fin.ext ?_)
      match a with
      | ⟨0, _⟩ => show win0_2.index t (0 : Fin 2) * 5000 + 1 * p.val = t.val * 5000 + p.val; omega
      | ⟨1, _⟩ => show win0_2.index t (1 : Fin 2) * 1 + 1 * 0 = 0; omega
    · show V c main_v30 (((cfg0.win 3).blk t).view.emb (ix2 k q)) = V c main_v30 (ix2 k q)
      refine congrArg _ (funext fun a => Fin.ext ?_)
      match a with
      | ⟨0, _⟩ => show win0_3.index t (0 : Fin 2) * 128 + 1 * k.val = k.val; omega
      | ⟨1, _⟩ => show win0_3.index t (1 : Fin 2) * 128 + 1 * q.val = q.val; omega
  · show V c main_arg3 (((cfg0.win 4).blk t).view.emb (ix1 q)) = V c main_arg3 (ix1 q)
    refine congrArg _ (funext fun a => Fin.ext ?_)
    match a with
    | ⟨0, _⟩ => show win0_4.index t (0 : Fin 1) * 128 + 1 * q.val = q.val; omega

/-! ## The linear layer's output array (window 5) -/

/-- What point t writes back to the output array is block t of the whole-array function. -/
theorem flushed5_eq (c : Dev nD) (t : Fin cfg0.N) :
    (dat0 V c).flushed 5 t = ((cfg0.win 5).blk t).view.read (Elt Ideal)
      (Y (V c main_arg0) (V c main_v28) (V c main_v18) (V c main_v30) (V c main_arg3)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e50, e51, e60, e61, e62⟩ := idx_facts t
  funext j
  obtain ⟨p, q, rfl⟩ : ∃ (p : Fin 5000) (q : Fin 128), j = ix2 p q := ⟨j 0, j 1, eq_ix2 j⟩
  refine (Body0.pay1_apply (iblk0 V c 0 t) (iblk0 V c 1 t) (iblk0 V c 2 t) (iblk0 V c 3 t) (iblk0 V c 4 t) p q).trans ?_
  rw [lin_block V c t p q]
  show _ = Y (V c main_arg0) (V c main_v28) (V c main_v18) (V c main_v30) (V c main_arg3) (((cfg0.win 5).blk t).view.emb (ix2 p q))
  unfold Y
  refine congrArg₂ (lin (V c main_arg0) (V c main_v28) (V c main_v18) (V c main_v30) (V c main_arg3)) (Fin.ext ?_) (Fin.ext ?_)
  · show t.val * 5000 + p.val = win0_5.index t (0 : Fin 2) * 5000 + 1 * p.val; omega
  · show q.val = win0_5.index t (1 : Fin 2) * 128 + 1 * q.val; omega

/-- An index of the output array is in point t's block iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31_0).slice (win0_5.rect t)).set ↔ _
  rw [View.set_slice_whole, Rect.mem_set_unit]
  exact Iff.rfl

/-- Every index of the output array is in some point's block: row n is in block n / 5000. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e50, e51, e60, e61, e62⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The linear layer's output array after the call. -/
theorem final5 (c : Dev nD) : (dat0 V c).arrAt 5 cfg0.N
    = Y (V c main_arg0) (V c main_v28) (V c main_v18) (V c main_v30) (V c main_arg3) :=
  (dat0 V c).arrAt_eq_of_cover 5 _ (fun t _ => flushed5_eq V c t) cover5

/-! ## The statistics array (window 6) -/

/-- The block of statistics a point leaves in its staging buffer, as one function of the buffer's index: row 0 the column
    sums, row 1 the column sums of squares. -/
def blockStats (v0 v1 : FVec Ideal S5000x128 .f32) (v3 : FVec Ideal S5000x1 .f32) (v9 : FVec Ideal S128x128 .bf16) (v12 : FVec Ideal S128 .f32) :
    S1x2x128.Idx → EReal :=
  fun y => if (y 1).val = 0 then ∑ r : Fin 5000, Body0.lin v0 v1 v3 v9 v12 r ⟨(y 2).val, (y 2).isLt⟩
    else ∑ r : Fin 5000, Body0.lin v0 v1 v3 v9 v12 r ⟨(y 2).val, (y 2).isLt⟩ * Body0.lin v0 v1 v3 v9 v12 r ⟨(y 2).val, (y 2).isLt⟩

/-- The two stores of a point, the sums into row 0 and the sums of squares into row 1, leave that block. -/
theorem out6_eq (v0 v1 : FVec Ideal S5000x128 .f32) (v3 : FVec Ideal S5000x1 .f32) (v9 : FVec Ideal S128x128 .bf16) (v12 : FVec Ideal S128 .f32) :
    out0_6 (F := Ideal) v0 v1 v3 v9 v12 = blockStats v0 v1 v3 v9 v12 := by
  unfold out0_6
  simp only [View.ld_unit_zero (S := S5000x128) hz2, View.ld_unit_zero (S := S5000x1) hz2,
    View.ld_unit_zero (S := S128x128) hz2, View.ld_unit_zero (S := S128) hz1]
  funext y
  refine View.canon_apply_of_pieces (Val := Elt Ideal) (e := .f32) (blockStats v0 v1 v3 v9 v12) _ ?_ y (cover0_6 _ _ y)
  intro pc hpc
  rcases List.mem_cons.mp hpc with rfl | hpc
  · -- the store into row 1
    intro x
    show k0_pay3 (F := Ideal) v0 v1 v3 v9 v12 x = blockStats v0 v1 v3 v9 v12 (r0_5.emb x)
    obtain ⟨u, v, q, rfl⟩ : ∃ (u v : Fin 1) (q : Fin 128), x = ix3 u v q := ⟨x 0, x 1, x 2, eq_ix3 x⟩
    refine (Body0.pay3_apply v0 v1 v3 v9 v12 u v q).trans ?_
    have h1 : ((r0_5.emb (ix3 u v q)) 1).val = 1 + 1 * v.val := by rw [Rect.emb_apply]; rfl
    have h2 : ((r0_5.emb (ix3 u v q)) 2).val = 0 + 1 * q.val := by rw [Rect.emb_apply]; rfl
    unfold blockStats
    rw [if_neg (by omega)]
    have hq : (⟨((r0_5.emb (ix3 u v q)) 2).val, ((r0_5.emb (ix3 u v q)) 2).isLt⟩ : Fin 128) = q := Fin.ext (by show ((r0_5.emb (ix3 u v q)) 2).val = q.val; omega)
    rw [hq]
  · rcases List.mem_singleton.mp hpc with rfl
    intro x
    show k0_pay2 (F := Ideal) v0 v1 v3 v9 v12 x = blockStats v0 v1 v3 v9 v12 (r0_4.emb x)
    obtain ⟨u, v, q, rfl⟩ : ∃ (u v : Fin 1) (q : Fin 128), x = ix3 u v q := ⟨x 0, x 1, x 2, eq_ix3 x⟩
    refine (Body0.pay2_apply v0 v1 v3 v9 v12 u v q).trans ?_
    have h1 : ((r0_4.emb (ix3 u v q)) 1).val = 0 + 1 * v.val := by rw [Rect.emb_apply]; rfl
    have h2 : ((r0_4.emb (ix3 u v q)) 2).val = 0 + 1 * q.val := by rw [Rect.emb_apply]; rfl
    have hv : v.val = 0 := by omega
    unfold blockStats
    rw [if_pos (by omega)]
    have hq : (⟨((r0_4.emb (ix3 u v q)) 2).val, ((r0_4.emb (ix3 u v q)) 2).isLt⟩ : Fin 128) = q := Fin.ext (by show ((r0_4.emb (ix3 u v q)) 2).val = q.val; omega)
    rw [hq]

/-- What point t writes back to the statistics array is block t of the whole-array function. -/
theorem flushed6_eq (c : Dev nD) (t : Fin cfg0.N) :
    (dat0 V c).flushed 6 t = ((cfg0.win 6).blk t).view.read (Elt Ideal)
      (Stats (V c main_arg0) (V c main_v28) (V c main_v18) (V c main_v30) (V c main_arg3)) := by
  show (cfg0.win 6).cut (grid0.coords t) ((dat0 V c).after 6 t) = _
  rw [after0_6, out6_eq]
  obtain ⟨e00, e01, e10, e11, e20, e21, e30, e31, e40, e50, e51, e60, e61, e62⟩ := idx_facts t
  funext j
  obtain ⟨u, v, q, rfl⟩ : ∃ (u : Fin 1) (v : Fin 2) (q : Fin 128), j = ix3 u v q := ⟨j 0, j 1, j 2, eq_ix3 j⟩
  show blockStats (iblk0 V c 0 t) (iblk0 V c 1 t) (iblk0 V c 2 t) (iblk0 V c 3 t) (iblk0 V c 4 t) (ix3 u v q)
    = Stats (V c main_arg0) (V c main_v28) (V c main_v18) (V c main_v30) (V c main_arg3) (((cfg0.win 6).blk t).view.emb (ix3 u v q))
  have hu : u.val = 0 := by omega
  have k0 : ((((cfg0.win 6).blk t).view.emb (ix3 u v q)) 0).val = win0_6.index t (0 : Fin 3) * 1 + 1 * u.val := rfl
  have k1 : ((((cfg0.win 6).blk t).view.emb (ix3 u v q)) 1).val = win0_6.index t (1 : Fin 3) * 2 + 1 * v.val := rfl
  have k2 : ((((cfg0.win 6).blk t).view.emb (ix3 u v q)) 2).val = win0_6.index t (2 : Fin 3) * 128 + 1 * q.val := rfl
  have hb : (⟨((((cfg0.win 6).blk t).view.emb (ix3 u v q)) 0).val, ((((cfg0.win 6).blk t).view.emb (ix3 u v q)) 0).isLt⟩ : Fin 10) = ⟨t.val, t_lt t⟩ :=
    Fin.ext (by show ((((cfg0.win 6).blk t).view.emb (ix3 u v q)) 0).val = t.val; omega)
  have hq : (⟨((((cfg0.win 6).blk t).view.emb (ix3 u v q)) 2).val, ((((cfg0.win 6).blk t).view.emb (ix3 u v q)) 2).isLt⟩ : Fin 128) = q :=
    Fin.ext (by show ((((cfg0.win 6).blk t).view.emb (ix3 u v q)) 2).val = q.val; omega)
  unfold blockStats Stats
  rw [hb, hq]
  by_cases hv : v.val = 0
  · rw [if_pos (show ((ix3 u v q : S1x2x128.Idx) 1).val = 0 from hv), if_pos (by omega)]
    exact Finset.sum_congr rfl fun r _ => lin_block V c t r q
  · rw [if_neg (show ¬ ((ix3 u v q : S1x2x128.Idx) 1).val = 0 from hv), if_neg (by omega)]
    exact Finset.sum_congr rfl fun r _ => by rw [lin_block V c t r q]

/-- An index of the statistics array is in point t's block iff each coordinate is in the block's range on its axis. -/
theorem mem_blk6 (t : Fin cfg0.N) (i : S10x2x128.Idx) :
    i ∈ ((cfg0.win 6).blk t).view.set ↔ ∀ a : Fin 3, win0_6.index t a * S1x2x128.size a ≤ (i a).val ∧ (i a).val < win0_6.index t a * S1x2x128.size a + S1x2x128.size a := by
  show i ∈ ((View.whole main_v31_1).slice (win0_6.rect t)).set ↔ _
  rw [View.set_slice_whole, Rect.mem_set_unit]
  exact Iff.rfl

/-- Every index of the statistics array is in some point's block: row t is point t's. -/
theorem cover6 (i : S10x2x128.Idx) : ∃ t : Fin cfg0.N, (cfg0.win 6).flush t = true ∧ i ∈ ((cfg0.win 6).blk t).view.set := by
  have hi0 : (i 0).val < 10 := (i 0).isLt
  have hi1 : (i 1).val < 2 := (i 1).isLt
  have hi2 : (i 2).val < 128 := (i 2).isLt
  obtain ⟨t, ht⟩ := idx_onto ⟨(i 0).val, hi0⟩
  have ht' : t.val = (i 0).val := ht
  obtain ⟨e00, e01, e10, e11, e20, e21, e30, e31, e40, e50, e51, e60, e61, e62⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2 ≤ (i 1).val ∧ (i 1).val < win0_6.index t (1 : Fin 3) * 2 + 2; omega
  | ⟨2, _⟩ => show win0_6.index t (2 : Fin 3) * 128 ≤ (i 2).val ∧ (i 2).val < win0_6.index t (2 : Fin 3) * 128 + 128; omega

/-- The statistics array after the call. -/
theorem final6 (c : Dev nD) : (dat0 V c).arrAt 6 cfg0.N
    = Stats (V c main_arg0) (V c main_v28) (V c main_v18) (V c main_v30) (V c main_arg3) :=
  (dat0 V c).arrAt_eq_of_cover 6 _ (fun t _ => flushed6_eq V c t) cover6

end Cert.KernelIdeal.Region0

end
-- ==== Proof.Body1.lean ====
/-
  The second kernel's body at one grid point, read at an index at the exact (extended-real) instance.

  A grid point loads a block of 5000 rows of the linear layer's output y and the four per-column vectors: the mean μ,
  the reciprocal standard deviation s, the scale γ and the shift β.  It stores

    out(p, q) = max ( ((y(p, q) - μ(q)) · s(q)) · γ(q) + β(q) , 0 ).
-/
import proofs.«171058_j78005196030507_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Body1

open Cert.KernelIdeal Cert.KernelIdeal.Gen Idealize.ShloMosaic Idealize.ShloMosaic.ValueIdx

/-- Normalise, scale, shift and clamp at zero: one entry of the output from one entry of y and the four per-column
    numbers. -/
def bn (y μ s γ β : EReal) : EReal := max (((y - μ) * s) * γ + β) (Ideal.ofBits .f32 0x00000000#32)

/-- The stored block at (p, q). -/
theorem pay1_apply (v0 : FVec Ideal S5000x128 .f32) (v2 v5 v8 v10 : FVec Ideal S128 .f32) (p : Fin 5000) (q : Fin 128) :
    k1_pay1 (F := Ideal) v0 v2 v5 v8 v10 (ix2 p q)
      = bn (v0 (ix2 p q)) (v2 (ix1 q)) (v5 (ix1 q)) (v8 (ix1 q)) (v10 (ix1 q)) := by
  unfold k1_pay1 bn
  rw [maximumf_apply, addf_apply, mulf_apply, mulf_apply, subf_apply, broadcast_apply, shapeCast_self v0,
    broadcastTo_1b_ab_apply, broadcastTo_1b_ab_apply, broadcastTo_1b_ab_apply, broadcastTo_1b_ab_apply,
    shapeCast_a_1a_apply, shapeCast_a_1a_apply, shapeCast_a_1a_apply, shapeCast_a_1a_apply,
    shapeCast_self v2, shapeCast_self v5]
  rfl

end Cert.KernelIdeal.Body1

end
-- ==== Proof.Region1.lean ====
/-
  The second pallas_call as one whole-array function.

  Its grid has ten points; point t stages rows 5000·t … 5000·t + 4999 of the linear layer's output y together with
  the four per-column vectors whole, and writes the same rows of the result back.  The blocks tile the result array,
  so after the last point the array holds, at every (n, q),

    out(n, q) = max ( ((y(n, q) - μ(q)) · s(q)) · γ(q) + β(q) , 0 )

  of the arrays the call was entered with.
-/
import proofs.«171058_j78005196030507_2_alg».proof.Proof.Gen.KernelIdeal.Frame
import proofs.«171058_j78005196030507_2_alg».proof.Proof.Body1
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The column of an index of a [50000, 128] array. -/
abbrev col (i : S50000x128.Idx) : Fin 128 := ⟨(i 1).val, (i 1).isLt⟩

/-- The result array from the arrays the call is entered with: y, the mean, the reciprocal standard deviation, the scale
    and the shift. -/
def Out (Yv : S50000x128.Idx → EReal) (M S G B : S128.Idx → EReal) : S50000x128.Idx → EReal :=
  fun i => Body1.bn (Yv i) (M (ix1 (col i))) (S (ix1 (col i))) (G (ix1 (col i))) (B (ix1 (col i)))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the block of y moves with the result's block, row block t, column block 0; the
    four vectors are staged whole. -/
theorem idx_facts : ∀ t : Fin cfg1.N, win1_0.index t (0 : Fin 2) = win1_5.index t (0 : Fin 2)
    ∧ win1_0.index t (1 : Fin 2) = 0 ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- Every row block is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of the whole-array function. -/
theorem flushed_eq (c : Dev nD) (t : Fin cfg1.N) :
    (dat1 V c).flushed 5 t = ((cfg1.win 5).blk t).view.read (Elt Ideal)
      (Out (V c main_v31_0) (V c main_v36) (V c main_v47) (V c main_arg4) (V c main_arg5)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  refine (Body1.pay1_apply (iblk1 V c 0 t) (iblk1 V c 1 t) (iblk1 V c 2 t) (iblk1 V c 3 t) (iblk1 V c 4 t) p q).trans ?_
  show Body1.bn (V c main_v31_0 (((cfg1.win 0).blk t).view.emb (ix2 p q))) (V c main_v36 (((cfg1.win 1).blk t).view.emb (ix1 q)))
      (V c main_v47 (((cfg1.win 2).blk t).view.emb (ix1 q))) (V c main_arg4 (((cfg1.win 3).blk t).view.emb (ix1 q)))
      (V c main_arg5 (((cfg1.win 4).blk t).view.emb (ix1 q)))
    = Out (V c main_v31_0) (V c main_v36) (V c main_v47) (V c main_arg4) (V c main_arg5) (((cfg1.win 5).blk t).view.emb (ix2 p q))
  unfold Out
  have h0 : ((cfg1.win 0).blk t).view.emb (ix2 p q) = ((cfg1.win 5).blk t).view.emb (ix2 p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have h1 : ((cfg1.win 1).blk t).view.emb (ix1 q) = ix1 (col (((cfg1.win 5).blk t).view.emb (ix2 p q))) := by
    funext a; apply Fin.ext
    match a with
    | ⟨0, _⟩ => show win1_1.index t (0 : Fin 1) * 128 + 1 * q.val = win1_5.index t (1 : Fin 2) * 128 + 1 * q.val; omega
  have h2 : ((cfg1.win 2).blk t).view.emb (ix1 q) = ix1 (col (((cfg1.win 5).blk t).view.emb (ix2 p q))) := by
    funext a; apply Fin.ext
    match a with
    | ⟨0, _⟩ => show win1_2.index t (0 : Fin 1) * 128 + 1 * q.val = win1_5.index t (1 : Fin 2) * 128 + 1 * q.val; omega
  have h3 : ((cfg1.win 3).blk t).view.emb (ix1 q) = ix1 (col (((cfg1.win 5).blk t).view.emb (ix2 p q))) := by
    funext a; apply Fin.ext
    match a with
    | ⟨0, _⟩ => show win1_3.index t (0 : Fin 1) * 128 + 1 * q.val = win1_5.index t (1 : Fin 2) * 128 + 1 * q.val; omega
  have h4 : ((cfg1.win 4).blk t).view.emb (ix1 q) = ix1 (col (((cfg1.win 5).blk t).view.emb (ix2 p q))) := by
    funext a; apply Fin.ext
    match a with
    | ⟨0, _⟩ => show win1_4.index t (0 : Fin 1) * 128 + 1 * q.val = win1_5.index t (1 : Fin 2) * 128 + 1 * q.val; omega
  rw [h0, h1, h2, h3, h4]

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- Every index of the result array is in some point's block: row n is in block n / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the call. -/
theorem final (c : Dev nD) : (dat1 V c).arrAt 5 cfg1.N
    = Out (V c main_v31_0) (V c main_v36) (V c main_v47) (V c main_arg4) (V c main_arg5) :=
  (dat1 V c).arrAt_eq_of_cover 5 _ (fun t _ => flushed_eq V c t) cover

end Cert.KernelIdeal.Region1

end
-- ==== Proof.HostK.lean ====
/-
  The host operations around the two pallas_calls of the idealized kernel, read back.

  Before the first call the host computes, from the edge list, each node's degree (floored at 1) and the sum agg of its
  neighbours' feature rows, exactly as the reference does, then the reciprocal degrees as a column and the transposed
  weight matrix.  Between the calls it sums the per-block statistics over the ten blocks and forms the mean
  μ = S₀ / 50000, the mean of squares S₁ / 50000, the clamped variance max (S₁ / 50000 - μ², 0) and its reciprocal
  square root after adding ε.  This module states what each array the calls stage holds when its call is entered.
  The degree and the neighbour sums are named by the reference's own stages: the two programs compute them by the
  same operations of the same arguments.
-/
import proofs.«171058_j78005196030507_2_alg».proof.Proof.Gen.KernelIdeal.Frame
import proofs.«171058_j78005196030507_2_alg».proof.Proof.Gen.ReferenceIdeal.Read

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The reciprocal degrees as a column: 1 / deg, node by node. -/
def invDeg (ei : (⟨S2x600000, .i32⟩ : BufTy).Contents (Elt Ideal)) : (⟨S50000x1, .f32⟩ : BufTy).Contents (Elt Ideal) :=
  shapeCast _ (Host.divf (F := Ideal) (broadcastInDim S50000 ![] bcast_S_S50000 (constant (F := Ideal) S_ .f32 0x3F800000#32))
    (Cert.ReferenceIdeal.Read.val_main_v15 (F := Ideal) ei)) shapeCasts_S50000_S50000x1

/-- The transposed weight matrix (the change of float format is the identity here). -/
def wT (W : (⟨S128x128, .f32⟩ : BufTy).Contents (Elt Ideal)) : (⟨S128x128, .bf16⟩ : BufTy).Contents (Elt Ideal) :=
  truncf (F := Ideal) .bf16 (transpose S128x128 [1, 0] W transposes_S128x128_S128x128_1_0) bitsLt_bf16_f32

/-- The statistics summed over the ten blocks. -/
def sums (St : (⟨S10x2x128, .f32⟩ : BufTy).Contents (Elt Ideal)) : (⟨S2x128, .f32⟩ : BufTy).Contents (Elt Ideal) :=
  Host.reduceAdd (F := Ideal) St (constant (F := Ideal) S_ .f32 0x00000000#32) reducesTo_S10x2x128_S2x128_d0 h_S_

/-- The mean of each column of the linear layer's output. -/
def mean (St : (⟨S10x2x128, .f32⟩ : BufTy).Contents (Elt Ideal)) : (⟨S128, .f32⟩ : BufTy).Contents (Elt Ideal) :=
  Host.divf (F := Ideal) (shapeCast _ (extractStridedSlice S1x128 ![0, 0] (sums St) slices_S2x128_S1x128_0_0) shapeCasts_S1x128_S128)
    (broadcastInDim S128 ![] bcast_S_S128 (constant (F := Ideal) S_ .f32 0x47435000#32))

/-- The mean of the squares of each column. -/
def meanSq (St : (⟨S10x2x128, .f32⟩ : BufTy).Contents (Elt Ideal)) : (⟨S128, .f32⟩ : BufTy).Contents (Elt Ideal) :=
  Host.divf (F := Ideal) (shapeCast _ (extractStridedSlice S1x128 ![1, 0] (sums St) slices_S2x128_S1x128_1_0) shapeCasts_S1x128_S128)
    (broadcastInDim S128 ![] bcast_S_S128 (constant (F := Ideal) S_ .f32 0x47435000#32))

/-- The reciprocal standard deviation of each column: the one-pass variance, clamped at zero, plus ε, under the reciprocal
    square root. -/
def invStd (St : (⟨S10x2x128, .f32⟩ : BufTy).Contents (Elt Ideal)) : (⟨S128, .f32⟩ : BufTy).Contents (Elt Ideal) :=
  Host.rsqrt (F := Ideal) (addf (maximumf (subf (meanSq St) (mulf (mean St) (mean St)))
      (broadcastInDim S128 ![] bcast_S_S128 (constant (F := Ideal) S_ .f32 0x00000000#32)))
    (broadcastInDim S128 ![] bcast_S_S128 (constant (F := Ideal) S_ .f32 0x3727C5AC#32)))

/-! ## At the first call's entry -/

set_option maxHeartbeats 4000000 in
theorem entry0_x (c : Dev nD) : V5 m ρ c main_arg0 = m ((c : Thread nD τ).loc main_arg0) := by
  dsimp only [V5, W5, W4, W3, W2, W1, W0, hostOps0_4, hostOps0_3, hostOps0_2, hostOps0_1, hostOps0]
  after_results_simp <;> rfl

set_option maxHeartbeats 4000000 in
theorem entry0_b (c : Dev nD) : V5 m ρ c main_arg3 = m ((c : Thread nD τ).loc main_arg3) := by
  dsimp only [V5, W5, W4, W3, W2, W1, W0, hostOps0_4, hostOps0_3, hostOps0_2, hostOps0_1, hostOps0]
  after_results_simp <;> rfl

set_option maxHeartbeats 4000000 in
theorem entry0_wt (c : Dev nD) : V5 m ρ c main_v30 = wT (m ((c : Thread nD τ).loc main_arg2)) := by
  dsimp only [V5, W5, W4, W3, W2, W1, W0, hostOps0_4, hostOps0_3, hostOps0_2, hostOps0_1, hostOps0]
  after_results_simp <;> rfl

set_option maxHeartbeats 16000000 in
theorem entry0_agg (c : Dev nD) : V5 m ρ c main_v28
    = Cert.ReferenceIdeal.Read.val_main_v25 (F := Ideal) (m ((c : Thread nD τ).loc main_arg0)) (m ((c : Thread nD τ).loc main_arg1)) := by
  dsimp only [V5, W5, W4, W3, W2, W1, W0, hostOps0_4, hostOps0_3, hostOps0_2, hostOps0_1, hostOps0]
  after_results_simp <;> rfl

set_option maxHeartbeats 16000000 in
theorem entry0_invdeg (c : Dev nD) : V5 m ρ c main_v18 = invDeg (m ((c : Thread nD τ).loc main_arg1)) := by
  dsimp only [V5, W5, W4, W3, W2, W1, W0, hostOps0_4, hostOps0_3, hostOps0_2, hostOps0_1, hostOps0]
  after_results_simp <;> rfl

/-! ## At the second call's entry -/

set_option maxHeartbeats 4000000 in
theorem entry1_y (c : Dev nD) : V7 m ρ c main_v31_0 = (dat0 (V5 m ρ) c).arrAt 5 cfg0.N := by
  dsimp only [V7, W7, hostOps1]
  after_results_simp
  exact W6_arr m ρ c 5

set_option maxHeartbeats 4000000 in
theorem entry1_mean (c : Dev nD) : V7 m ρ c main_v36 = mean ((dat0 (V5 m ρ) c).arrAt 6 cfg0.N) := by
  rw [← W6_arr m ρ c 6]
  dsimp only [V7, W7, hostOps1]
  after_results_simp <;> rfl

set_option maxHeartbeats 4000000 in
theorem entry1_invstd (c : Dev nD) : V7 m ρ c main_v47 = invStd ((dat0 (V5 m ρ) c).arrAt 6 cfg0.N) := by
  rw [← W6_arr m ρ c 6]
  dsimp only [V7, W7, hostOps1]
  after_results_simp <;> rfl

set_option maxHeartbeats 4000000 in
theorem entry1_gamma (c : Dev nD) : V7 m ρ c main_arg4 = m ((c : Thread nD τ).loc main_arg4) := by
  dsimp only [V7, W7, hostOps1]
  after_results_simp
  rw [W6_of_ne m ρ c main_arg4 (by decide)]
  dsimp only [W5, W4, W3, W2, W1, W0, hostOps0_4, hostOps0_3, hostOps0_2, hostOps0_1, hostOps0]
  after_results_simp <;> rfl

set_option maxHeartbeats 4000000 in
theorem entry1_beta (c : Dev nD) : V7 m ρ c main_arg5 = m ((c : Thread nD τ).loc main_arg5) := by
  dsimp only [V7, W7, hostOps1]
  after_results_simp
  rw [W6_of_ne m ρ c main_arg5 (by decide)]
  dsimp only [W5, W4, W3, W2, W1, W0, hostOps0_4, hostOps0_3, hostOps0_2, hostOps0_1, hostOps0]
  after_results_simp <;> rfl

end Cert.KernelIdeal.HostValue

end
-- ==== Proof.KernelRun.lean ====
/-
  The idealized kernel's result as one function of its arguments.

  Chaining the pieces: the result buffer ends at what the second pallas_call's write-backs leave; that call computes
  out = max (((y - μ) · s) · γ + β, 0) of the arrays it is entered with; those are the first call's output y, the mean μ
  and reciprocal standard deviation s the host forms from the first call's per-block statistics, and the arguments
  γ and β; and the first call computes y and the statistics from the features x, the neighbour sums agg, the
  reciprocal degrees, the transposed weights and the bias b.
-/
import proofs.«171058_j78005196030507_2_alg».proof.Proof.RunResult
import proofs.«171058_j78005196030507_2_alg».proof.Proof.Region0
import proofs.«171058_j78005196030507_2_alg».proof.Proof.Region1
import proofs.«171058_j78005196030507_2_alg».proof.Proof.HostK

set_option maxRecDepth 16384

noncomputable section

namespace Cert.KernelIdeal.KernelRun

open Cert.KernelIdeal Cert.KernelIdeal.Gen Idealize.ShloMosaic Idealize.ShloMosaic.TcCoe Idealize.SL.Sem
open Cert.KernelIdeal.HostValue

/-- The linear layer's output array from the arguments. -/
def yOf (x : (⟨S50000x128, .f32⟩ : BufTy).Contents (Elt Ideal)) (ei : (⟨S2x600000, .i32⟩ : BufTy).Contents (Elt Ideal))
    (W : (⟨S128x128, .f32⟩ : BufTy).Contents (Elt Ideal)) (b : (⟨S128, .f32⟩ : BufTy).Contents (Elt Ideal)) : S50000x128.Idx → EReal :=
  Region0.Y x (Cert.ReferenceIdeal.Read.val_main_v25 (F := Ideal) x ei) (invDeg ei) (wT W) b

/-- The per-block statistics array from the arguments. -/
def statsOf (x : (⟨S50000x128, .f32⟩ : BufTy).Contents (Elt Ideal)) (ei : (⟨S2x600000, .i32⟩ : BufTy).Contents (Elt Ideal))
    (W : (⟨S128x128, .f32⟩ : BufTy).Contents (Elt Ideal)) (b : (⟨S128, .f32⟩ : BufTy).Contents (Elt Ideal)) : S10x2x128.Idx → EReal :=
  Region0.Stats x (Cert.ReferenceIdeal.Read.val_main_v25 (F := Ideal) x ei) (invDeg ei) (wT W) b

/-- The kernel's result array from the arguments. -/
def out (x : (⟨S50000x128, .f32⟩ : BufTy).Contents (Elt Ideal)) (ei : (⟨S2x600000, .i32⟩ : BufTy).Contents (Elt Ideal))
    (W : (⟨S128x128, .f32⟩ : BufTy).Contents (Elt Ideal)) (b g be : (⟨S128, .f32⟩ : BufTy).Contents (Elt Ideal)) : S50000x128.Idx → EReal :=
  Region1.Out (yOf x ei W b) (mean (statsOf x ei W b)) (invStd (statsOf x ei W b)) g be

variable (m : (ℓ : Loc nD τ sig) → Buf (Elt Ideal) ℓ) (ρ : Dev nD → PrngReg)

/-- The last boundary's contents at the result buffer are that function of the launch memory's argument arrays. -/
theorem result_eq (c : Dev nD) : W8 m ρ c (Proc.devRef .tc main_v48)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 5).trans ?_
  rw [Region1.final (V7 m ρ) c, entry1_y, entry1_mean, entry1_invstd, entry1_gamma, entry1_beta,
    Region0.final5 (V5 m ρ) c, Region0.final6 (V5 m ρ) c, entry0_x, entry0_agg, entry0_invdeg, entry0_wt, entry0_b]
  rfl

/-- Every weakly fair execution of the idealized kernel terminates without a fault, its result array that function of the
    argument arrays, and the arguments as launched. -/
theorem run : θ_run defs (onTc (τ := τ) (main (F := Ideal))) ⟨m, fun _ => 0, ρ⟩ (fun r => ∀ c : Dev nD,
      r.2.mem ((c.tc : Thread nD τ).loc main_v48)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (RunValue.run_result m ρ)

end Cert.KernelIdeal.KernelRun

end
-- ==== Proof.LibBatchVariance.lean ====
/-
  Batch statistics over the extended reals, for entries that are real numbers.

  A batch of N real numbers y has mean μ = (Σ y) / N.  Its biased variance can be taken in two passes,
  (Σ (y - μ)²) / N, or in one pass, (Σ y²) / N - μ², clamped at zero against rounding.  Over the reals the two
  agree exactly, because Σ (y - μ)² = Σ y² - 2 μ Σ y + N μ² and Σ y = N μ, and the clamp does nothing, because
  a mean of squares is not negative.  The lemmas below state this for extended reals that are coerced reals, in the
  form float programs compute it (sums from an initial zero, quotients by a nonzero real constant), and
  give the bookkeeping that goes with it: a finite sum of coerced reals is the coerced sum; a sum taken block by
  block and then over the blocks is the sum over everything.
-/
import Idealize.ShloMosaic.PureOps.Ideal
import Mathlib.Algebra.BigOperators.Fin
import Mathlib.Algebra.Order.BigOperators.Ring.Finset
import Mathlib.Tactic.FieldSimp
import Mathlib.Tactic.Ring
import Mathlib.Tactic.Linarith

noncomputable section

namespace Cert.LibBatchVariance

open Idealize.ShloMosaic
open scoped BigOperators

/-- A finite sum of coerced reals is the coerced real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- If every term of a finite sum of extended reals is a real number, so is the sum. -/
theorem exists_real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self a s)
    exact ⟨q + r, by rw [Finset.sum_insert ha, hr, hq, EReal.coe_add]⟩

/-- The quotient of a real by a nonzero real, as float division computes it on the extended reals. -/
theorem div_coe_coe (a : ℝ) {n : ℝ} (hn : n ≠ 0) : Ideal.div (a : EReal) (n : EReal) = ((a / n : ℝ) : EReal) := by
  rw [Ideal.div_coe hn, ← EReal.coe_mul, mul_one_div]

/-- The maximum of two coerced reals is the coerced maximum. -/
theorem max_coe_coe (a b : ℝ) : max (a : EReal) (b : EReal) = ((max a b : ℝ) : EReal) :=
  (EReal.coe_strictMono.monotone.map_max).symm

/-- Over the reals: the two-pass variance is the one-pass variance. -/
theorem two_pass_eq_one_pass {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have hs : ∑ j, f j = n * ((∑ j, f j) / n) := by field_simp
  generalize (∑ j, f j) / n = μ at hs ⊢
  have hexp : ∑ i, (f i - μ) * (f i - μ) = ∑ i, f i * f i - 2 * μ * ∑ i, f i + n * (μ * μ) := by
    rw [Finset.sum_congr rfl (fun i _ => (by ring : (f i - μ) * (f i - μ) = f i * f i - 2 * μ * f i + μ * μ)),
      Finset.sum_add_distrib, Finset.sum_sub_distrib, ← Finset.mul_sum, Finset.sum_const, Finset.card_univ,
      nsmul_eq_mul, hcard]
  rw [hexp, hs]
  field_simp
  ring

/-- Over the reals: the two-pass variance is not negative when the divisor is positive. -/
theorem two_pass_nonneg {ι : Type*} [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a batch of coerced reals: the mean from an initial zero. -/
theorem mean_coe {ι : Type*} [Fintype ι] (f : ι → ℝ) {n : ℝ} (hn : n ≠ 0) :
    Ideal.div (0 + ∑ i, ((f i : ℝ) : EReal)) (n : EReal) = (((∑ i, f i) / n : ℝ) : EReal) := by
  rw [zero_add, coe_sum, div_coe_coe _ hn]

/-- On the extended reals, for a batch of coerced reals: the clamped one-pass variance — the mean of the squares minus the
    square of the mean, floored at zero — is the two-pass variance, the mean of the squared deviations from the mean. -/
theorem one_pass_clamped_eq_two_pass {ι : Type*} [Fintype ι] (f : ι → ℝ) {n : ℝ} (hn : 0 < n) (hcard : (Fintype.card ι : ℝ) = n) :
    max (Ideal.div (0 + ∑ i, ((f i : ℝ) : EReal) * ((f i : ℝ) : EReal)) (n : EReal)
          - Ideal.div (0 + ∑ i, ((f i : ℝ) : EReal)) (n : EReal) * Ideal.div (0 + ∑ i, ((f i : ℝ) : EReal)) (n : EReal)) 0
      = Ideal.div (0 + ∑ i, (((f i : ℝ) : EReal) - Ideal.div (0 + ∑ j, ((f j : ℝ) : EReal)) (n : EReal))
                          * (((f i : ℝ) : EReal) - Ideal.div (0 + ∑ j, ((f j : ℝ) : EReal)) (n : EReal))) (n : EReal) := by
  have hn' : n ≠ 0 := hn.ne'
  rw [mean_coe f hn']
  simp only [← EReal.coe_mul, ← EReal.coe_sub]
  rw [mean_coe (fun i => f i * f i) hn', mean_coe (fun i => (f i - (∑ j, f j) / n) * (f i - (∑ j, f j) / n)) hn',
    ← EReal.coe_sub, ← EReal.coe_zero, max_coe_coe, ← two_pass_eq_one_pass f hn' hcard,
    max_eq_left (two_pass_nonneg f _ hn)]

/-- A sum taken block by block and then over the blocks is the sum over everything: `a` blocks of `b` entries each,
    entry `r` of block `p` being entry `p * b + r` of the whole, in any commutative monoid. -/
theorem sum_blocks {M : Type*} [AddCommMonoid M] (a b : ℕ) (g : Fin (a * b) → M) :
    ∑ p : Fin a, ∑ r : Fin b, g ⟨p.val * b + r.val, by
        have := p.isLt; have := r.isLt
        calc p.val * b + r.val < p.val * b + b := by omega
          _ = (p.val + 1) * b := by ring
          _ ≤ a * b := Nat.mul_le_mul_right b (by omega)⟩ = ∑ n : Fin (a * b), g n := by
  rw [← Fintype.sum_prod_type', ← (finProdFinEquiv (m := a) (n := b)).sum_comp]
  refine Finset.sum_congr rfl fun x _ => congrArg g (Fin.ext ?_)
  show x.1.val * b + x.2.val = x.2.val + b * x.1.val
  ring

end Cert.LibBatchVariance

end
-- ==== Proof.Consts.lean ====
/-
  The float constants the two programs spell, as the extended reals their bit patterns denote.
-/
import Idealize.ShloMosaic.PureOps.Ideal

noncomputable section

namespace Cert.Consts

open Idealize.ShloMosaic

/-- The pattern of `1.0` denotes the real 1: the floor of a node's degree and the numerator of its reciprocal. -/
theorem ofBits_one : Ideal.ofBits .f32 0x3F800000#32 = ((1 : ℝ) : EReal) := by
  simp [Ideal.ofBits, Ideal.ieee, -EReal.coe_mul]; norm_num

/-- The pattern of `50000.0` denotes the real 50000: the number of rows the batch statistics average over. -/
theorem ofBits_50000 : Ideal.ofBits .f32 0x47435000#32 = ((50000 : ℝ) : EReal) := by
  simp [Ideal.ofBits, Ideal.ieee, -EReal.coe_mul]; norm_num

/-- The all-zero pattern denotes 0. -/
theorem ofBits_zero : Ideal.ofBits .f32 0x00000000#32 = 0 := by
  simp [Ideal.ofBits, Ideal.ieee]

end Cert.Consts

end
-- ==== Proof.BridgeY.lean ====
/-
  The two linear layers are one function, and its entries are real numbers.

  Kernel:     y(n, q) = Σ_k (x(n, k) + agg(n, k) · invdeg(n)) · Wᵀ(k, q) + b(q),   invdeg(n) = 1 / deg(n);
  reference:  y(n, q) = Σ_k (x(n, k) + agg(n, k) / deg(n)) · W(q, k) + b(q).

  A degree is an integer count floored at 1, hence a real number d ≥ 1; division by a nonzero real is multiplication by
  its reciprocal on every extended real, so agg · (1 / d) = agg / d with no condition on agg.  The transposed matrix at
  (k, q) is the matrix at (q, k).  So the two arrays agree entry by entry.

  Under the precondition x, W and b hold real numbers.  A neighbour sum agg(n, k) is zero plus a finite sum of entries
  of x (a gathered entry is an entry of x, and a scatter-add adds some of the gathered entries), hence real; so every
  entry of y is a real number.
-/
import proofs.«171058_j78005196030507_2_alg».proof.Proof.KernelRun
import proofs.«171058_j78005196030507_2_alg».proof.Proof.Gen.ReferenceIdeal.Read
import proofs.«171058_j78005196030507_2_alg».proof.Proof.LibBatchVariance
import proofs.«171058_j78005196030507_2_alg».proof.Proof.LibKeepdimsCol
import proofs.«171058_j78005196030507_2_alg».proof.Proof.Consts
import Idealize.ShloMosaic.Lib.ValueLayout

set_option maxRecDepth 16384

noncomputable section

namespace Cert.Bridge

open Cert.KernelIdeal Idealize.ShloMosaic Idealize.ShloMosaic.ValueIdx
open Cert.KernelIdeal.HostValue Cert.KernelIdeal.KernelRun
open Cert.ReferenceIdeal.Read
open scoped BigOperators

variable (x : (⟨S50000x128, .f32⟩ : BufTy).Contents (Elt Ideal)) (ei : (⟨S2x600000, .i32⟩ : BufTy).Contents (Elt Ideal))
  (W : (⟨S128x128, .f32⟩ : BufTy).Contents (Elt Ideal)) (b : (⟨S128, .f32⟩ : BufTy).Contents (Elt Ideal))

/-- A node's degree is a real number, at least 1. -/
theorem deg_real (n : Fin 50000) : ∃ d : ℝ, 1 ≤ d ∧ val_main_v15 (F := Ideal) ei (ix1 n) = (d : EReal) := by
  refine ⟨max 1 ((val_main_v13 (F := Ideal) ei (ix1 n)).toInt : ℝ), le_max_left _ _, ?_⟩
  rw [val_main_v15_apply, val_main_call1_v1_apply, val_main_call1_v0_apply, val_main_cst_apply, val_main_v14_apply,
    Ideal.maximumf_def, Ideal.ofBits_def, Cert.Consts.ofBits_one, ← Cert.LibBatchVariance.max_coe_coe]
  rfl

/-- The reciprocal degree of node n, when its degree is the real d ≠ 0. -/
theorem invDeg_apply (n : Fin 50000) (d : ℝ) (hd : d ≠ 0) (h : val_main_v15 (F := Ideal) ei (ix1 n) = (d : EReal)) :
    invDeg ei (ix2 n (0 : Fin 1)) = ((1 / d : ℝ) : EReal) := by
  unfold invDeg
  rw [Cert.LibKeepdimsCol.shapeCast_a_a1_apply]
  show Ideal.div (Ideal.ofBits .f32 0x3F800000#32) (val_main_v15 (F := Ideal) ei (ix1 n)) = _
  rw [h, Cert.Consts.ofBits_one, Ideal.div_coe hd, ← EReal.coe_mul, one_mul]

/-- The transposed weights at (k, q) are the weights at (q, k). -/
theorem wT_apply (k q : Fin 128) : wT W (ix2 k q) = W (ix2 q k) := by
  unfold wT
  rw [truncf_apply, transpose_ix2_apply]

/-- The reference's linear layer at (n, q). -/
theorem ref_y_apply (n : Fin 50000) (q : Fin 128) :
    val_main_v33 (F := Ideal) x ei W b (ix2 n q)
      = (∑ k : Fin 128, (x (ix2 n k) + Ideal.div (val_main_v25 (F := Ideal) x ei (ix2 n k)) (val_main_v15 (F := Ideal) ei (ix1 n))) * W (ix2 q k))
        + b (ix1 q) := by
  rw [val_main_v33_apply, val_main_v30_apply, val_main_v32_apply, val_main_v31_apply, Ideal.addf_def]
  refine congrArg₂ (· + ·) (Finset.sum_congr rfl fun k _ => ?_) ?_
  · have e1 : lidx_main_v30 (ix2 n q) k = ix2 n k := funext fun a => Fin.ext (by match a with | ⟨0, _⟩ => rfl | ⟨1, _⟩ => rfl)
    have e2 : ridx_main_v30 (ix2 n q) k = ix2 q k := funext fun a => Fin.ext (by match a with | ⟨0, _⟩ => rfl | ⟨1, _⟩ => rfl)
    rw [e1, e2, val_main_v29_apply, val_main_v28_apply, val_main_v27_apply, val_main_v26_apply, Ideal.addf_def, Ideal.hostDivf_def]
    have e3 : idx_main_v26 (idx_main_v27 (ix2 n k)) = ix1 n := funext fun a => Fin.ext (by match a with | ⟨0, _⟩ => rfl)
    rw [e3]
  · exact congrArg b (funext fun a => Fin.ext (by match a with | ⟨0, _⟩ => rfl))

/-- The kernel's linear layer is the reference's, entry by entry. -/
theorem y_eq (i : S50000x128.Idx) : yOf x ei W b i = val_main_v33 (F := Ideal) x ei W b i := by
  obtain ⟨n, q, rfl⟩ : ∃ (n : Fin 50000) (q : Fin 128), i = ix2 n q := ⟨i 0, i 1, eq_ix2 i⟩
  obtain ⟨d, hd1, hd⟩ := deg_real ei n
  have hd0 : d ≠ 0 := by linarith
  rw [ref_y_apply]
  show Region0.lin x (val_main_v25 (F := Ideal) x ei) (invDeg ei) (wT W) b n q = _
  unfold Region0.lin
  refine congrArg₂ (· + ·) (Finset.sum_congr rfl fun k _ => ?_) rfl
  rw [invDeg_apply ei n d hd0 hd, wT_apply, hd, Ideal.div_coe hd0]

/-- A neighbour sum is a real number when the features are. -/
theorem agg_real (hx : ∀ i, ∃ r : ℝ, x i = (r : EReal)) (i : S50000x128.Idx) :
    ∃ r : ℝ, val_main_v25 (F := Ideal) x ei i = (r : EReal) := by
  unfold val_main_v25
  simp only [Host.scatterAdd, Ideal.hostScatterAdd_def]
  unfold Ideal.hostScatterAdd
  obtain ⟨s, hs⟩ := Cert.LibBatchVariance.exists_real_sum
    (Finset.univ.filter fun j => Cert.ReferenceIdeal.scatter_S50000x128_S600000x1_S600000x128_1_0_0_1.resultIdx? j (val_main_v24 (F := Ideal) ei) = some i)
    (val_main_v22 (F := Ideal) x ei) (fun j _ => hx _)
  refine ⟨0 + s, ?_⟩
  rw [hs, val_main_v23_apply, val_main_cst_6_apply, Ideal.ofBits_def, Cert.Consts.ofBits_zero, EReal.coe_add, EReal.coe_zero]

/-- Every entry of the linear layer is a real number when the features, the weights and the bias are. -/
theorem y_real (hx : ∀ i, ∃ r : ℝ, x i = (r : EReal)) (hW : ∀ i, ∃ r : ℝ, W i = (r : EReal)) (hb : ∀ i, ∃ r : ℝ, b i = (r : EReal))
    (n : Fin 50000) (q : Fin 128) : ∃ r : ℝ, val_main_v33 (F := Ideal) x ei W b (ix2 n q) = (r : EReal) := by
  obtain ⟨d, hd1, hd⟩ := deg_real ei n
  have hd0 : d ≠ 0 := by linarith
  rw [ref_y_apply, hd]
  obtain ⟨s, hs⟩ := Cert.LibBatchVariance.exists_real_sum Finset.univ
    (fun k : Fin 128 => (x (ix2 n k) + Ideal.div (val_main_v25 (F := Ideal) x ei (ix2 n k)) (d : EReal)) * W (ix2 q k))
    (fun k _ => by
      obtain ⟨xr, hxr⟩ := hx (ix2 n k)
      obtain ⟨ar, har⟩ := agg_real x ei hx (ix2 n k)
      obtain ⟨wr, hwr⟩ := hW (ix2 q k)
      exact ⟨(xr + ar / d) * wr, by
        show (x (ix2 n k) + Ideal.div (val_main_v25 (F := Ideal) x ei (ix2 n k)) (d : EReal)) * W (ix2 q k) = _
        rw [hxr, har, hwr, Cert.LibBatchVariance.div_coe_coe _ hd0, ← EReal.coe_add, ← EReal.coe_mul]⟩)
  obtain ⟨br, hbr⟩ := hb (ix1 q)
  exact ⟨s + br, by rw [hs, hbr, EReal.coe_add]⟩

end Cert.Bridge

end
-- ==== Proof.BridgeStats.lean ====
/-
  The batch statistics agree.

  The kernel sums each column of y and of y² block by block (ten blocks of 5000 rows) and then over the blocks; the
  reference sums each column over all 50000 rows at once.  A sum over blocks of sums within blocks is the sum over
  everything, so the two means agree, with no condition on the entries.

  The kernel's variance is max (mean(y²) - mean(y)², 0); the reference's is the mean of (y - mean(y))².  For real
  entries these are equal (the one-pass and the two-pass variance of a batch of reals, and the latter is not
  negative); the entries are real under the precondition.  Both programs then add the same ε and take the reciprocal
  square root.
-/
import proofs.«171058_j78005196030507_2_alg».proof.Proof.BridgeY

set_option maxRecDepth 16384

noncomputable section

namespace Cert.Bridge

open Cert.KernelIdeal Cert.KernelIdeal.Gen Idealize.ShloMosaic Idealize.ShloMosaic.ValueIdx
open Cert.KernelIdeal.HostValue Cert.KernelIdeal.KernelRun
open Cert.ReferenceIdeal.Read
open scoped BigOperators

variable (x : (⟨S50000x128, .f32⟩ : BufTy).Contents (Elt Ideal)) (ei : (⟨S2x600000, .i32⟩ : BufTy).Contents (Elt Ideal))
  (W : (⟨S128x128, .f32⟩ : BufTy).Contents (Elt Ideal)) (b : (⟨S128, .f32⟩ : BufTy).Contents (Elt Ideal))

/-- The statistics summed over the ten blocks, at row k (0: sums, 1: sums of squares), column q. -/
theorem sums_apply (St : (⟨S10x2x128, .f32⟩ : BufTy).Contents (Elt Ideal)) (k : Fin 2) (q : Fin 128) :
    sums St (ix2 k q) = Ideal.ofBits .f32 0x00000000#32 + ∑ p : Fin 10, St (ix3 p k q) := by
  unfold sums
  simp only [Host.reduceAdd, Ideal.hostReduceAdd_def]
  rw [Ideal.hostReduceAdd_single reducesTo_S10x2x128_S2x128_d0 (by decide)]
  refine congrArg₂ (· + ·) rfl (Finset.sum_congr rfl fun p _ => congrArg St (funext fun a => Fin.ext ?_))
  match a with
  | ⟨0, _⟩ => rfl
  | ⟨1, _⟩ => rfl
  | ⟨2, _⟩ => rfl

/-- The kernel's column mean at q. -/
theorem mean_apply (St : (⟨S10x2x128, .f32⟩ : BufTy).Contents (Elt Ideal)) (q : Fin 128) :
    mean St (ix1 q) = Ideal.div (Ideal.ofBits .f32 0x00000000#32 + ∑ p : Fin 10, St (ix3 p (0 : Fin 2) q))
      (Ideal.ofBits .f32 0x47435000#32) := by
  unfold mean
  show Ideal.div (shapeCast _ (extractStridedSlice S1x128 ![0, 0] (sums St) slices_S2x128_S1x128_0_0) shapeCasts_S1x128_S128 (ix1 q))
    (Ideal.ofBits .f32 0x47435000#32) = _
  rw [shapeCast_1a_a_apply, slice2_axis0_apply 0 (sums St) _ (0 : Fin 1) q (0 : Fin 2) rfl, sums_apply]

/-- The kernel's column mean of squares at q. -/
theorem meanSq_apply (St : (⟨S10x2x128, .f32⟩ : BufTy).Contents (Elt Ideal)) (q : Fin 128) :
    meanSq St (ix1 q) = Ideal.div (Ideal.ofBits .f32 0x00000000#32 + ∑ p : Fin 10, St (ix3 p (1 : Fin 2) q))
      (Ideal.ofBits .f32 0x47435000#32) := by
  unfold meanSq
  show Ideal.div (shapeCast _ (extractStridedSlice S1x128 ![1, 0] (sums St) slices_S2x128_S1x128_1_0) shapeCasts_S1x128_S128 (ix1 q))
    (Ideal.ofBits .f32 0x47435000#32) = _
  rw [shapeCast_1a_a_apply, slice2_axis0_apply 1 (sums St) _ (0 : Fin 1) q (1 : Fin 2) rfl, sums_apply]

/-- A block's sum of a column of y, in the reference's terms. -/
theorem stats_apply0 (p : Fin 10) (q : Fin 128) :
    statsOf x ei W b (ix3 p (0 : Fin 2) q) = ∑ r : Fin 5000, val_main_v33 (F := Ideal) x ei W b (ix2 (Region0.blockRow p r) q) := by
  unfold statsOf Region0.Stats
  dsimp only
  rw [if_pos (show ((ix3 p (0 : Fin 2) q : S10x2x128.Idx) 1).val = 0 from rfl)]
  exact Finset.sum_congr rfl fun r _ => y_eq x ei W b (ix2 (Region0.blockRow p r) q)

/-- A block's sum of the squares of a column of y, in the reference's terms. -/
theorem stats_apply1 (p : Fin 10) (q : Fin 128) :
    statsOf x ei W b (ix3 p (1 : Fin 2) q)
      = ∑ r : Fin 5000, val_main_v33 (F := Ideal) x ei W b (ix2 (Region0.blockRow p r) q)
          * val_main_v33 (F := Ideal) x ei W b (ix2 (Region0.blockRow p r) q) := by
  unfold statsOf Region0.Stats
  dsimp only
  rw [if_neg (show ¬ ((ix3 p (1 : Fin 2) q : S10x2x128.Idx) 1).val = 0 from Nat.one_ne_zero)]
  exact Finset.sum_congr rfl fun r _ => congrArg₂ (· * ·) (y_eq x ei W b (ix2 (Region0.blockRow p r) q)) (y_eq x ei W b (ix2 (Region0.blockRow p r) q))

/-- Ten blocks of 5000 rows are the 50000 rows. -/
theorem sum_rows (f : Fin 50000 → EReal) : ∑ p : Fin 10, ∑ r : Fin 5000, f (Region0.blockRow p r) = ∑ n : Fin 50000, f n :=
  Cert.LibBatchVariance.sum_blocks 10 5000 f

/-- The kernel's mean of column q, as the mean over all rows of the reference's linear layer. -/
theorem mean_rows (q : Fin 128) : mean (statsOf x ei W b) (ix1 q)
    = Ideal.div (Ideal.ofBits .f32 0x00000000#32 + ∑ n : Fin 50000, val_main_v33 (F := Ideal) x ei W b (ix2 n q))
        (Ideal.ofBits .f32 0x47435000#32) := by
  rw [mean_apply, Finset.sum_congr rfl (fun p _ => stats_apply0 x ei W b p q),
    sum_rows (fun n => val_main_v33 (F := Ideal) x ei W b (ix2 n q))]

/-- The kernel's mean of squares of column q, over all rows. -/
theorem meanSq_rows (q : Fin 128) : meanSq (statsOf x ei W b) (ix1 q)
    = Ideal.div (Ideal.ofBits .f32 0x00000000#32
        + ∑ n : Fin 50000, val_main_v33 (F := Ideal) x ei W b (ix2 n q) * val_main_v33 (F := Ideal) x ei W b (ix2 n q))
        (Ideal.ofBits .f32 0x47435000#32) := by
  rw [meanSq_apply, Finset.sum_congr rfl (fun p _ => stats_apply1 x ei W b p q),
    sum_rows (fun n => val_main_v33 (F := Ideal) x ei W b (ix2 n q) * val_main_v33 (F := Ideal) x ei W b (ix2 n q))]

/-- The reference's mean of column q. -/
theorem ref_mean_apply (q : Fin 128) : val_main_v36 (F := Ideal) x ei W b (ix1 q)
    = Ideal.div (Ideal.ofBits .f32 0x00000000#32 + ∑ n : Fin 50000, val_main_v33 (F := Ideal) x ei W b (ix2 n q))
        (Ideal.ofBits .f32 0x47435000#32) := by
  rw [val_main_v36_apply, val_main_v34_apply, val_main_v35_apply, val_main_cst_8_apply, val_main_cst_7_apply,
    Ideal.hostDivf_def, Ideal.ofBits_def, Ideal.ofBits_def]
  refine congrArg₂ Ideal.div (congrArg₂ (· + ·) rfl (Finset.sum_congr rfl fun k _ => congrArg _ (funext fun a => Fin.ext ?_))) rfl
  match a with
  | ⟨0, _⟩ => rfl
  | ⟨1, _⟩ => rfl

/-- The two means agree. -/
theorem mean_eq (q : Fin 128) : mean (statsOf x ei W b) (ix1 q) = val_main_v36 (F := Ideal) x ei W b (ix1 q) := by
  rw [mean_rows, ref_mean_apply]

/-- The reference's variance plus ε under the reciprocal square root, at column q. -/
theorem ref_invStd_apply (q : Fin 128) : val_main_v49 (F := Ideal) x ei W b (ix1 q)
    = Ideal.rsqrt (Ideal.div (Ideal.ofBits .f32 0x00000000#32
          + ∑ n : Fin 50000, (val_main_v33 (F := Ideal) x ei W b (ix2 n q) - val_main_v36 (F := Ideal) x ei W b (ix1 q))
              * (val_main_v33 (F := Ideal) x ei W b (ix2 n q) - val_main_v36 (F := Ideal) x ei W b (ix1 q)))
          (Ideal.ofBits .f32 0x47435000#32)
        + Ideal.ofBits .f32 0x3727C5AC#32) := by
  rw [val_main_v49_apply, val_main_v48_apply, val_main_v47_apply, val_main_cst_11_apply, val_main_v43_apply,
    val_main_v41_apply, val_main_v42_apply, val_main_cst_10_apply, val_main_cst_9_apply,
    Ideal.hostUnary_rsqrt_def, Ideal.addf_def, Ideal.hostDivf_def, Ideal.ofBits_def, Ideal.ofBits_def, Ideal.ofBits_def]
  refine congrArg Ideal.rsqrt (congrArg₂ (· + ·) (congrArg₂ Ideal.div (congrArg₂ (· + ·) rfl (Finset.sum_congr rfl fun k _ => ?_)) rfl) rfl)
  have e1 : idx_main_v41 (ix1 q) k = ix2 k q := funext fun a => Fin.ext (by match a with | ⟨0, _⟩ => rfl | ⟨1, _⟩ => rfl)
  have e2 : idx_main_v37 (idx_main_v38 (ix2 k q)) = ix1 q := funext fun a => Fin.ext (by match a with | ⟨0, _⟩ => rfl)
  rw [e1, val_main_v40_apply, val_main_v39_apply, val_main_v38_apply, val_main_v37_apply, e2, Ideal.mulf_def, Ideal.subf_def]

/-- The kernel's clamped one-pass variance plus ε under the reciprocal square root, at column q. -/
theorem invStd_apply (St : (⟨S10x2x128, .f32⟩ : BufTy).Contents (Elt Ideal)) (q : Fin 128) :
    invStd St (ix1 q) = Ideal.rsqrt (max (meanSq St (ix1 q) - mean St (ix1 q) * mean St (ix1 q)) (Ideal.ofBits .f32 0x00000000#32)
      + Ideal.ofBits .f32 0x3727C5AC#32) := rfl

/-- The two reciprocal standard deviations agree when every entry of the linear layer is a real number. -/
theorem invStd_eq (hy : ∀ n : Fin 50000, ∀ q : Fin 128, ∃ r : ℝ, val_main_v33 (F := Ideal) x ei W b (ix2 n q) = (r : EReal)) (q : Fin 128) :
    invStd (statsOf x ei W b) (ix1 q) = val_main_v49 (F := Ideal) x ei W b (ix1 q) := by
  choose yr hyr using fun n => hy n q
  rw [invStd_apply, ref_invStd_apply, ref_mean_apply, meanSq_rows, mean_rows]
  simp only [hyr]
  rw [Cert.Consts.ofBits_zero, Cert.Consts.ofBits_50000,
    Cert.LibBatchVariance.one_pass_clamped_eq_two_pass yr (by norm_num) (by simp)]

end Cert.Bridge

end
-- ==== Proof.BridgeOut.lean ====
/-
  The two results agree.

  Both programs end with out(n, q) = max (((y(n, q) - μ(q)) · s(q)) · γ(q) + β(q), 0): the kernel in its second
  pallas_call, the reference on the host.  The arrays y, the means μ and the reciprocal standard deviations s of the
  two programs are equal (the latter under the precondition), and γ, β are the same arguments; so the results are equal
  entry by entry.
-/
import proofs.«171058_j78005196030507_2_alg».proof.Proof.BridgeStats

set_option maxRecDepth 16384

noncomputable section

namespace Cert.Bridge

open Cert.KernelIdeal Idealize.ShloMosaic Idealize.ShloMosaic.ValueIdx
open Cert.KernelIdeal.HostValue Cert.KernelIdeal.KernelRun
open Cert.ReferenceIdeal.Read
open scoped BigOperators

variable (x : (⟨S50000x128, .f32⟩ : BufTy).Contents (Elt Ideal)) (ei : (⟨S2x600000, .i32⟩ : BufTy).Contents (Elt Ideal))
  (W : (⟨S128x128, .f32⟩ : BufTy).Contents (Elt Ideal)) (b g be : (⟨S128, .f32⟩ : BufTy).Contents (Elt Ideal))

/-- The kernel's result array is the reference's, when the features, the weights and the bias hold real numbers. -/
theorem out_eq (hx : ∀ i, ∃ r : ℝ, x i = (r : EReal)) (hW : ∀ i, ∃ r : ℝ, W i = (r : EReal)) (hb : ∀ i, ∃ r : ℝ, b i = (r : EReal)) :
    out x ei W b g be = val_main_v59 (F := Ideal) x ei W b g be := by
  funext i
  obtain ⟨n, q, rfl⟩ : ∃ (n : Fin 50000) (q : Fin 128), i = ix2 n q := ⟨i 0, i 1, eq_ix2 i⟩
  have hy : ∀ n : Fin 50000, ∀ q : Fin 128, ∃ r : ℝ, val_main_v33 (F := Ideal) x ei W b (ix2 n q) = (r : EReal) :=
    fun n q => y_real x ei W b hx hW hb n q
  rw [val_main_v59_apply, val_main_call2_v0_apply, val_main_call2_cst_apply, val_main_v58_apply, val_main_v57_apply,
    val_main_v56_apply, val_main_v55_apply, val_main_v54_apply, val_main_v53_apply, val_main_v52_apply, val_main_v51_apply,
    val_main_v50_apply, val_main_v46_apply, val_main_v45_apply, val_main_v44_apply]
  have e44 : idx_main_v44 (idx_main_v45 (ix2 n q)) = ix1 q := funext fun a => Fin.ext (by match a with | ⟨0, _⟩ => rfl)
  have e50 : idx_main_v50 (idx_main_v51 (ix2 n q)) = ix1 q := funext fun a => Fin.ext (by match a with | ⟨0, _⟩ => rfl)
  have e53 : idx_main_v53 (idx_main_v54 (ix2 n q)) = ix1 q := funext fun a => Fin.ext (by match a with | ⟨0, _⟩ => rfl)
  have e56 : idx_main_v56 (idx_main_v57 (ix2 n q)) = ix1 q := funext fun a => Fin.ext (by match a with | ⟨0, _⟩ => rfl)
  rw [e44, e50, e53, e56, ← y_eq x ei W b (ix2 n q), ← mean_eq x ei W b q, ← invStd_eq x ei W b hy q]
  rfl

end Cert.Bridge

end
-- ==== Proof.Finite.lean ====
/-
  From the precondition to real numbers.

  The precondition says, of each float argument, that every entry's absolute value is below +∞, the five facts joined
  by "and".  On the extended reals an entry whose absolute value is below +∞ is neither infinity, hence a real number.
  This module reads the facts back for the three arguments whose finiteness the proof uses: the features x, the weights
  W and the bias b.
-/
import proofs.«171058_j78005196030507_2_alg».proof.Pre_finite_inputs
import proofs.«171058_j78005196030507_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Cert.Pre_finite_inputs Idealize.ShloMosaic Idealize.ShloMosaic.ValueIdx

instance : Subsingleton S_.Idx := ⟨fun a b => funext fun d => d.elim0⟩

/-- An extended real whose absolute value is below the pattern of +∞ is a real number. -/
theorem exists_real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If "every entry's absolute value is below +∞" came out true of an array, every entry is a real number. -/
theorem all_real {s : Shape} {axes : List (Fin s.rank)} (x : FVec Ideal s .f32)
    (bc : S_.BroadcastsInDim s (![] : Fin 0 → Fin s.rank)) (red : s.ReducesTo axes S_) (hu : 0 < S_.numel)
    (e : Host.reduce IntOp.andi (cmpf .olt (Host.absf x) (broadcastInDim s ![] bc (constant (F := Ideal) S_ .f32 0x7F800000#32)))
          (constantI S_ 1 1#1) red hu ix0 = 1#1) (i : s.Idx) : ∃ r : ℝ, x i = (r : EReal) :=
  exists_real_of_abs_lt (x i) (Host.reduce_andi_all _ _ red hu ix0 e i)

/-- Under the precondition the features, the weights and the bias hold real numbers. -/
theorem of_pre (x : FVec Ideal S50000x128 .f32) (ei : IVec S2x600000 32) (W : FVec Ideal S128x128 .f32)
    (b g be : FVec Ideal S128 .f32) (h : fn (F := Ideal) x ei W b g be = fun _ => 1#1) :
    (∀ i, ∃ r : ℝ, x i = (r : EReal)) ∧ (∀ i, ∃ r : ℝ, W i = (r : EReal)) ∧ (∀ i, ∃ r : ℝ, b i = (r : EReal)) := by
  have h0 := congrFun h ix0
  dsimp only [fn, fn_part1] at h0
  obtain ⟨h1, -⟩ := IntOp.andi_eq_one.1 h0
  obtain ⟨h2, -⟩ := IntOp.andi_eq_one.1 h1
  obtain ⟨h3, hb⟩ := IntOp.andi_eq_one.1 h2
  obtain ⟨hx, hW⟩ := IntOp.andi_eq_one.1 h3
  exact ⟨all_real x _ _ _ hx, all_real W _ _ _ hW, all_real b _ _ _ hb⟩

end Cert.Finite

end
-- ==== Proof.lean ====
/-
  A graph layer: each node's features plus the mean of its neighbours' features, a linear map, batch normalisation
  over the nodes, ReLU.  The kernel computes the neighbour sums and degrees on the host as the reference does,
  the linear map and per-block column sums of y and y² in a first pallas_call, the batch mean and the one-pass variance
  max (mean(y²) - mean(y)², 0) on the host, and the normalisation and ReLU in a second pallas_call.  The reference
  divides by the degree where the kernel multiplies by its reciprocal, contracts with W where the kernel multiplies by
  Wᵀ, and takes the two-pass variance mean((y - mean(y))²).  On the extended reals with exact operations these
  agree: division by a real d ≥ 1 is multiplication by 1/d; a sum over blocks of sums within blocks is the whole sum;
  and for real entries, which the precondition gives, the two variances are equal.

  The three frames are the generated ones (the reference's is its generated run with the result dropped); the
  idealization rewrote nothing, so there is nothing to preserve; the algebraic claim sets the kernel's run, read back
  through both pallas_calls as one function of the arguments, beside the reference's generated run.
-/
import proofs.«171058_j78005196030507_2_alg».proof.Defs
import proofs.«171058_j78005196030507_2_alg».proof.Proof.Gen.Kernel
import proofs.«171058_j78005196030507_2_alg».proof.Proof.Gen.Kernel.Skeleton
import proofs.«171058_j78005196030507_2_alg».proof.Proof.Gen.Kernel.Launch
import proofs.«171058_j78005196030507_2_alg».proof.Proof.Gen.Kernel.Points
import proofs.«171058_j78005196030507_2_alg».proof.Proof.Gen.Kernel.Frame
import proofs.«171058_j78005196030507_2_alg».proof.Proof.Gen.KernelIdeal
import proofs.«171058_j78005196030507_2_alg».proof.Proof.Gen.KernelIdeal.Skeleton
import proofs.«171058_j78005196030507_2_alg».proof.Proof.Gen.KernelIdeal.Launch
import proofs.«171058_j78005196030507_2_alg».proof.Proof.Gen.KernelIdeal.Points
import proofs.«171058_j78005196030507_2_alg».proof.Proof.Gen.KernelIdeal.Frame
import proofs.«171058_j78005196030507_2_alg».proof.Proof.Gen.ReferenceIdeal
import proofs.«171058_j78005196030507_2_alg».proof.Proof.Gen.Pre_finite_inputs
import proofs.«171058_j78005196030507_2_alg».proof.Proof.Gen.ReferenceIdeal.Run
import proofs.«171058_j78005196030507_2_alg».proof.Proof.Gen.ReferenceIdeal.Read
import proofs.«171058_j78005196030507_2_alg».proof.Proof.KernelRun
import proofs.«171058_j78005196030507_2_alg».proof.Proof.BridgeOut
import proofs.«171058_j78005196030507_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's result array and the reference's end equal: each run ends at its
    program's function of the arguments, and under the precondition the two functions agree. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hb⟩ := Cert.Finite.of_pre _ _ _ _ _ _ (hpre c)
  rw [Cert.ReferenceIdeal.Read.val_main_v59_eq, (hagree c).1, (hagree c).2.1, (hagree c).2.2.1, (hagree c).2.2.2.1,
    (hagree c).2.2.2.2.1, (hagree c).2.2.2.2.2]
  exact (Cert.Bridge.out_eq _ _ _ _ _ _ hx hW hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
